-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x3072 : Shape := ⟨3, ![32, 512, 3072]⟩
abbrev S_ : Shape := ⟨0, ![]⟩

class Facts : Prop where
  bcast_S_S32x512x3072 : S_.BroadcastsInDim S32x512x3072 (![] : Fin 0 → Fin S32x512x3072.rank)
  reducesTo_S32x512x3072_S_d0_1_2 : S32x512x3072.ReducesTo [0, 1, 2] S_
  h_S_ : 0 < S_.numel

variable [Facts]

def fn {F : FTy → Type} [FloatOps F] (main_arg0 : FVec F S32x512x3072 .f32) : IVec S_ 1 :=
  let main_v0 : FVec F S32x512x3072 .f32 := Host.absf main_arg0
  let main_cst : FVec F S_ .f32 := constant S_ .f32 0x7F800000#32
  let main_v1 : FVec F S32x512x3072 .f32 := broadcastInDim S32x512x3072 ![] bcast_S_S32x512x3072 main_cst
  let main_v2 : IVec S32x512x3072 1 := cmpf .olt main_v0 main_v1
  let main_c : IVec S_ 1 := constantI S_ 1 1#1
  let main_v3 : IVec S_ 1 := (fun x v => Host.reduce IntOp.andi x v reducesTo_S32x512x3072_S_d0_1_2 h_S_) main_v2 main_c
  main_v3
-- ==== Kernel.lean ====
abbrev S32x512x3072 : Shape := ⟨3, ![32, 512, 3072]⟩
abbrev S16384x3072 : Shape := ⟨2, ![16384, 3072]⟩
abbrev S512x3072 : Shape := ⟨2, ![512, 3072]⟩

abbrev nBuf : Space → Nat
  | .hbm => 4
  | .vmem => 4
  | .smem => 0
  | _ => 0

abbrev bufTy : (tb : Table) → Fin (tcTables nBuf tb) → BufTy
  | .hbm, ⟨0, _⟩ => ⟨S32x512x3072, .f32⟩
  | .hbm, ⟨1, _⟩ => ⟨S16384x3072, .f32⟩
  | .hbm, ⟨2, _⟩ => ⟨S16384x3072, .f32⟩
  | .hbm, ⟨3, _⟩ => ⟨S32x512x3072, .f32⟩
  | .local _ .vmem, ⟨0, _⟩ => ⟨S512x3072, .f32⟩
  | .local _ .vmem, ⟨1, _⟩ => ⟨S512x3072, .f32⟩
  | .local _ .vmem, ⟨2, _⟩ => ⟨S512x3072, .f32⟩
  | .local _ .vmem, ⟨3, _⟩ => ⟨S512x3072, .f32⟩
  | _, _ => ⟨S32x512x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x512x3072_S16384x3072 : S32x512x3072.ShapeCasts S16384x3072
  inb_S512x3072_S512x3072_0_0 : ∀ a, (![0, 0] : Fin 2 → Nat) a + S512x3072.size a ≤ S512x3072.size a
  h_S512x3072 : 0 < S512x3072.numel
  shapeCasts_S512x3072_S512x3072 : S512x3072.ShapeCasts S512x3072
  shapeCasts_S16384x3072_S32x512x3072 : S16384x3072.ShapeCasts S32x512x3072
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3072.size a ≤ S16384x3072.size a
  hwx0_0 : ∀ i : grid0.Coords, EltTy.bits .f32 = 32 ∨ (Rect.block (s := S16384x3072) S512x3072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x3072.size a ≤ S16384x3072.size a
  hwx0_1 : ∀ i : grid0.Coords, EltTy.bits .f32 = 32 ∨ (Rect.block (s := S16384x3072) S512x3072.size (cc0_transform_1 i) (hinb0_1 i)).WholeWords (EltTy.packing .f32)

variable [Facts₀]

abbrev win0_0 : Pipeline.Window sig grid0 :=
  Pipeline.Window.ofSpec (Memref.whole main_v0) S512x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x3072.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S32x512x3072 : Shape := ⟨3, ![32, 512, 3072]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S32x512x3072, .f32⟩
  | .hbm, ⟨1, _⟩ => ⟨S_, .f32⟩
  | .hbm, ⟨2, _⟩ => ⟨S32x512x3072, .f32⟩
  | .hbm, ⟨3, _⟩ => ⟨S32x512x3072, .f32⟩
  | .hbm, ⟨4, _⟩ => ⟨S32x512x3072, .f32⟩
  | .hbm, ⟨5, _⟩ => ⟨S_, .f32⟩
  | .hbm, ⟨6, _⟩ => ⟨S32x512x3072, .f32⟩
  | .hbm, ⟨7, _⟩ => ⟨S32x512x3072, .f32⟩
  | .hbm, ⟨8, _⟩ => ⟨S_, .f32⟩
  | .hbm, ⟨9, _⟩ => ⟨S32x512x3072, .f32⟩
  | .hbm, ⟨10, _⟩ => ⟨S32x512x3072, .i1⟩
  | .hbm, ⟨11, _⟩ => ⟨S_, .f32⟩
  | .hbm, ⟨12, _⟩ => ⟨S32x512x3072, .f32⟩
  | .hbm, ⟨13, _⟩ => ⟨S32x512x3072, .i1⟩
  | .hbm, ⟨14, _⟩ => ⟨S32x512x3072, .f32⟩
  | .hbm, ⟨15, _⟩ => ⟨S_, .f32⟩
  | .hbm, ⟨16, _⟩ => ⟨S_, .f32⟩
  | .hbm, ⟨17, _⟩ => ⟨S32x512x3072, .f32⟩
  | .hbm, ⟨18, _⟩ => ⟨S32x512x3072, .f32⟩
  | _, _ => ⟨S32x512x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S_S32x512x3072 : S_.BroadcastsInDim S32x512x3072 (![] : Fin 0 → Fin S32x512x3072.rank)

variable [Facts₀]

class Facts : Prop extends Facts₀ where

variable [Facts]
-- ==== Proof.Activation.lean ====
/-
  The piecewise activation both programs compute, as one scalar function, and its pointwise map over an array of any shape.

  For a float x the activation is
      0                      where x ≤ -3,
      x                      where x ≥ 3 (and not x ≤ -3),
      (x · (x + 3)) · c      elsewhere,
  with c the single-precision constant nearest to 1/6. The two comparisons are the ordered ones, the two selections are
  nested in this order, and the product is grouped as written: no law of arithmetic is used anywhere, so the function is
  stated, and the facts below hold, for every interpretation of the float operations.

  A reshape only renames the positions of an array (position j of the result is the position of the operand with the same
  row-major rank), so it commutes with any pointwise map, and reshaping to another shape and back is the identity. Together:
  applying the activation to a reshaped array and reshaping the result back is applying it to the array itself.
-/
import Idealize.ShloMosaic.PureOps
import Idealize.ShloMosaic.Lib.Pipeline.Value

noncomputable section

namespace Cert.Activation

open Idealize.ShloMosaic

variable {F : FTy → Type} [FloatOps F]

/-- The activation of one float: zero at and below -3, the identity at and above 3, the scaled quadratic x·(x+3)·c between. -/
def act (x : F .f32) : F .f32 :=
  Scalar.select (FloatOps.cmpf .ole x (FloatOps.ofBits .f32 0xC0400000#32)) (FloatOps.ofBits .f32 0x00000000#32)
    (Scalar.select (FloatOps.cmpf .oge x (FloatOps.ofBits .f32 0x40400000#32)) x
      (FloatOps.mulf (FloatOps.mulf x (FloatOps.addf x (FloatOps.ofBits .f32 0x40400000#32)))
        (FloatOps.ofBits .f32 0x3E2AAAAB#32)))

/-- The activation applied at every position of an array. -/
def map (s : Shape) (x : FVec F s .f32) : FVec F s .f32 := fun i => act (x i)

/-- A reshape commutes with the pointwise activation: both read the operand at the renamed position and apply `act`. -/
theorem shapeCast_map {s t : Shape} (x : FVec F s .f32) (h : s.ShapeCasts t) :
    shapeCast t (map s x) h = map t (shapeCast t x h) := rfl

/-- Reshape, apply the activation, reshape back: the activation of the array itself. -/
theorem map_there_and_back {s t : Shape} (x : FVec F s .f32) (h : s.ShapeCasts t) (h' : t.ShapeCasts s) :
    shapeCast s (map t (shapeCast t x h)) h' = map s x := by
  rw [shapeCast_map, shapeCast_shapeCast]

end Cert.Activation

end
-- ==== Proof.KernelBlock.lean ====
/-
  What one grid point of the kernel writes back, as a block of one whole-array function.

  The call runs over 32 grid points; point t reads rows 512·t … 512·t+511 (all 3072 columns) of the flattened
  16384 × 3072 input and writes the same rows of the output. The body loads its whole input block, computes on it
  pointwise, and stores the result over its whole output block, so the block it leaves is the activation applied at every
  position of the input block. The input and output windows have the same index map (block row t, block column 0), hence
  position j of the output block and position j of the input block are the same position of the 16384 × 3072 arrays: the
  block written back at t is block t of "the activation of the flattened input".
-/
import proofs.«173437_j80006650790212_2_alg».proof.Proof.Gen.KernelIdeal.Frame
import proofs.«173437_j80006650790212_2_alg».proof.Proof.Activation
import Idealize.ShloMosaic.Lib.Pipeline.Value

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)
open Cert.Activation

variable {F : FTy → Type} [FloatOps F]
variable (m : (ℓ : Loc nD τ sig) → Buf (Elt F) ℓ)

/-- The body's loads and its store start at row 0, column 0 of their blocks. -/
theorem zero_offsets : (![0, 0] : Fin 2 → Nat) = fun _ => 0 := funext fun a => by fin_cases a <;> rfl

/-- The value the body stores is the activation at every position of the block it loaded (the body's cast of the block
    to its own shape changes nothing). -/
theorem payload_eq (v0 : Vec F S512x3072 .f32) : k0_pay1 v0 = map S512x3072 v0 := by
  have e : shapeCast S512x3072 v0 shapeCasts_S512x3072_S512x3072 = v0 := shapeCast_self v0 _
  funext j
  show act (shapeCast S512x3072 v0 shapeCasts_S512x3072_S512x3072 j) = act (v0 j)
  rw [e]

/-- The activation of the flattened input: what the output array holds where a block has been written back. -/
abbrev flat (a : S16384x3072.Idx → Elt F .f32) : S16384x3072.Idx → Elt F .f32 := map S16384x3072 a

/-- Over the 32 grid points: the input window's block indices are the output window's, and the output's block column is 0. -/
theorem index_facts : ∀ t : Fin cfg0.N, win0_0.index t (0 : Fin 2) = win0_1.index t (0 : Fin 2)
    ∧ win0_0.index t (1 : Fin 2) = win0_1.index t (1 : Fin 2)
    ∧ win0_1.index t (1 : Fin 2) = 0 :=
  (by decide +kernel : ∀ t : Fin grid0.N, _)

/-- Every one of the 32 block rows is some grid point's. -/
theorem index_onto : ∀ q : Fin 32, ∃ t : Fin cfg0.N, win0_1.index t = ![q.val, 0] :=
  (by decide +kernel : ∀ q : Fin 32, ∃ t : Fin grid0.N, win0_1.index t = ![q.val, 0])

/-- The block point `t` writes back is block `t` of the activation of the flattened input as the call finds it. -/
theorem flushed_eq (c : Dev nD) (t : Fin cfg0.N) :
    (dats m 0 c).flushed 1 t = ((cfg0.win 1).blk t).view.read (Elt F) (flat (V m c main_v0)) := by
  show (cfg0.win 1).cut (grid0.coords t) ((dats m 0 c).after 1 t) = _
  rw [after0_1]
  unfold out0_1
  rw [View.canon_unit_zero zero_offsets]
  simp only [View.ld_unit_zero (S := S512x3072) zero_offsets]
  rw [payload_eq]
  obtain ⟨e0, e1, e2⟩ := index_facts t
  funext j
  show act (V m c main_v0 (((cfg0.win 0).blk t).view.emb j)) = act (V m c main_v0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 512 + 1 * (j 0).val = win0_1.index t (0 : Fin 2) * 512 + 1 * (j 0).val; omega
    | ⟨1, _⟩ => show win0_0.index t (1 : Fin 2) * 3072 + 1 * (j 1).val = win0_1.index t (1 : Fin 2) * 3072 + 1 * (j 1).val; omega
  rw [h0]

end Cert.KernelIdeal.Whole

end
-- ==== Proof.KernelArray.lean ====
/-
  The kernel's result array as one function of its argument.

  The program flattens its 32 × 512 × 3072 argument to 16384 × 3072 (a reshape: same elements, same row-major order), runs
  the call over 32 blocks of 512 rows, and reshapes the call's output back to 32 × 512 × 3072.
  * A row r of the flattened array lies in block row r / 512, and every block row is some grid point's, so the written-back
    blocks cover the output; each is a block of the activation of the flattened input, so the call's output is that whole
    function.
  * The call finds its input holding the reshape of the argument, and the line after the call reshapes the call's output.
  * Reshaping, applying the activation at every position and reshaping back is applying the activation at every position
    of the argument itself.
  The argument array is written by nothing.
-/
import proofs.«173437_j80006650790212_2_alg».proof.Proof.KernelBlock
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)
open Cert.Activation

variable {F : FTy → Type} [FloatOps F]
variable (m : (ℓ : Loc nD τ sig) → Buf (Elt F) ℓ) (ρ : Dev nD → PrngReg)

/-- A position of the 16384 × 3072 output is in point `t`'s block iff, on each axis, its coordinate is within the block's
    extent from the block's first coordinate (block index × block size). -/
theorem mem_block (t : Fin cfg0.N) (i : S16384x3072.Idx) :
    i ∈ ((cfg0.win 1).blk t).view.set ↔ ∀ a : Fin 2, win0_1.index t a * S512x3072.size a ≤ (i a).val ∧ (i a).val < win0_1.index t a * S512x3072.size a + S512x3072.size a := by
  show i ∈ ((View.whole main_v1).slice (win0_1.rect t)).set ↔ _
  rw [View.set_slice_whole, Rect.mem_set_unit]
  exact Iff.rfl

/-- Every position of the output is in the block some grid point writes back: row r is in block row r / 512. -/
theorem covered (i : S16384x3072.Idx) :
    ∃ t : Fin cfg0.N, (cfg0.win 1).flush t = true ∧ i ∈ ((cfg0.win 1).blk t).view.set := by
  have hi0 : (i 0).val < 16384 := (i 0).isLt
  have hi1 : (i 1).val < 3072 := (i 1).isLt
  obtain ⟨t, ht⟩ := index_onto ⟨(i 0).val / 512, by omega⟩
  have q0 : win0_1.index t (0 : Fin 2) = (i 0).val / 512 := congrFun ht 0
  have q1 : win0_1.index t (1 : Fin 2) = 0 := congrFun ht 1
  refine ⟨t, flush0_1 t, ?_⟩
  rw [mem_block]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 3072 ≤ (i 1).val ∧ (i 1).val < win0_1.index t (1 : Fin 2) * 3072 + 3072; omega

/-- After the call its output array holds the activation of the flattened input as the call found it. -/
theorem call_output (c : Dev nD) : (dats m 0 c).arrAt 1 cfg0.N = flat (V m c main_v0) :=
  (dats m 0 c).arrAt_eq_of_cover 1 (flat (V m c main_v0)) (fun t _ => flushed_eq m c t) covered

/-- The call finds its input array holding the argument reshaped to 16384 × 3072. -/
theorem call_input (c : Dev nD) :
    (V m c main_v0 : S16384x3072.Idx → Elt F .f32)
      = shapeCast S16384x3072 (m ((c : Thread nD τ).loc main_arg0)) shapeCasts_S32x512x3072_S16384x3072 := by
  show StableHlo.after hostOps0 (fun b => m (c, b)) (Proc.devRef .tc main_v0) = _
  after_results
  rfl

/-- The line after the call leaves, in the result array, the call's output reshaped to 32 × 512 × 3072. -/
theorem after_call (c : Dev nD) :
    (Pipeline.afterTail₀ cfgs (dats m) 0 (V0 m) [hostOps1] c main_v2 : S32x512x3072.Idx → Elt F .f32)
      = shapeCast S32x512x3072 ((dats m 0 c).arrAt 1 cfg0.N) shapeCasts_S16384x3072_S32x512x3072 := by
  unfold Pipeline.afterTail₀
  show StableHlo.after hostOps1 _ (Proc.devRef .tc main_v2) = _
  after_results
  rw [Pipeline.withArrays_arr spec0 launch0.win.arr_inj c _ _ 1]
  rfl

/-- The result array ends holding the activation at every position of the argument. -/
theorem result_eq (c : Dev nD) :
    (Pipeline.afterTail₀ cfgs (dats m) 0 (V0 m) [hostOps1] c main_v2 : S32x512x3072.Idx → Elt F .f32)
      = map S32x512x3072 (m ((c : Thread nD τ).loc main_arg0)) := by
  rw [after_call, call_output, call_input]
  exact map_there_and_back _ _ _

/-- Every weakly fair execution of the program terminates, with the result array at the activation of the argument at every
    position, and the argument array as it was. -/
theorem run : θ_run defs (onTc (τ := τ) (main (F := F))) ⟨m, fun _ => 0, ρ⟩ fun r => ∀ c : Dev nD,
      r.2.mem ((c : Thread nD τ).loc main_v2) = map S32x512x3072 (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.Whole

end
-- ==== Proof.ReferenceValue.lean ====
/-
  The reference computes the activation at every position of its argument.

  Its program is a straight line of whole-array operations on the 32 × 512 × 3072 argument x: x + 3, x · (x + 3),
  that times the constant c, the two comparisons of x with -3 and with 3, and the two nested selections. Each operation
  acts position by position and each constant is one float repeated at every position, so at a position i the result is
  the scalar activation of x i, with the same operations in the same order and grouping.
-/
import proofs.«173437_j80006650790212_2_alg».proof.Proof.Gen.ReferenceIdeal.Read
import proofs.«173437_j80006650790212_2_alg».proof.Proof.Activation

noncomputable section

namespace Cert.ReferenceIdeal.Whole

open Cert.ReferenceIdeal Cert.ReferenceIdeal.Gen Cert.ReferenceIdeal.Read Idealize.ShloMosaic Idealize.SL.Sem
open Cert.Activation

variable {F : FTy → Type} [FloatOps F]

/-- The reference's last stage, as a function of the argument array, is the activation applied at every position. -/
theorem stage_eq (x0 : (⟨S32x512x3072, .f32⟩ : BufTy).Contents (Elt F)) :
    val_main_v10 (F := F) x0 = map S32x512x3072 x0 := by
  funext i
  rw [val_main_v10_apply, val_main_v6_apply, val_main_v5_apply, val_main_cst_1_apply, val_main_call1_v1_apply,
    val_main_call1_v0_apply, val_main_cst_3_apply, val_main_v9_apply, val_main_v8_apply, val_main_v7_apply,
    val_main_cst_2_apply, val_main_v4_apply, val_main_v2_apply, val_main_v1_apply, val_main_v0_apply, val_main_cst_apply,
    val_main_v3_apply, val_main_cst_0_apply]
  rfl

end Cert.ReferenceIdeal.Whole

end
-- ==== Proof.lean ====
/-
  The kernel and its reference compute the same array.

  Both programs take one 32 × 512 × 3072 array x of floats and return the array whose entry at each position is the
  piecewise activation of the entry of x there: 0 where x ≤ -3, x where x ≥ 3, and (x · (x + 3)) · c in between, c the
  single-precision constant nearest 1/6 (`Activation.lean`).
  * The reference applies the operations to the whole array, position by position (`ReferenceValue.lean`).
  * The kernel flattens x to 16384 × 3072, applies the same operations block by block — 32 blocks of 512 full rows, each
    loaded, computed on and stored whole — and reshapes the result back. The blocks cover the flattened array, so the call
    computes the activation of the flattened array; flattening and reshaping back cancel around a function applied position
    by position (`KernelBlock.lean`, `KernelArray.lean`).
  The two sides apply the same float operations, to the same constants, in the same order and grouping; no law of
  arithmetic joins them, so the inputs' finiteness is not used. The idealized kernel is the kernel's own text read over the
  extended reals (no operation was rewritten), which is why that part of the claim is `True`. Each program terminates
  without a fault and leaves its argument as it was: for the two kernel programs this is the generated frame, for the
  reference its generated run.
-/
import proofs.«173437_j80006650790212_2_alg».proof.Defs
import proofs.«173437_j80006650790212_2_alg».proof.Proof.Gen.Kernel
import proofs.«173437_j80006650790212_2_alg».proof.Proof.Gen.Kernel.Skeleton
import proofs.«173437_j80006650790212_2_alg».proof.Proof.Gen.Kernel.Launch
import proofs.«173437_j80006650790212_2_alg».proof.Proof.Gen.Kernel.Points
import proofs.«173437_j80006650790212_2_alg».proof.Proof.Gen.Kernel.Frame
import proofs.«173437_j80006650790212_2_alg».proof.Proof.Gen.KernelIdeal
import proofs.«173437_j80006650790212_2_alg».proof.Proof.Gen.KernelIdeal.Skeleton
import proofs.«173437_j80006650790212_2_alg».proof.Proof.Gen.KernelIdeal.Launch
import proofs.«173437_j80006650790212_2_alg».proof.Proof.Gen.KernelIdeal.Points
import proofs.«173437_j80006650790212_2_alg».proof.Proof.Gen.KernelIdeal.Frame
import proofs.«173437_j80006650790212_2_alg».proof.Proof.Gen.ReferenceIdeal
import proofs.«173437_j80006650790212_2_alg».proof.Proof.Gen.ReferenceIdeal.Run
import proofs.«173437_j80006650790212_2_alg».proof.Proof.Gen.ReferenceIdeal.Read
import proofs.«173437_j80006650790212_2_alg».proof.Proof.Gen.Pre_finite_inputs
import proofs.«173437_j80006650790212_2_alg».proof.Proof.Activation
import proofs.«173437_j80006650790212_2_alg».proof.Proof.KernelArray
import proofs.«173437_j80006650790212_2_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed terminates without a fault and leaves its argument unchanged. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- So does the reference: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- From memories agreeing on the argument, both programs end with the result array at the activation of the argument at
    every position. -/
theorem algebraic : Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.Whole.stage_eq, hagree c]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
